-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x4096 .f32) (main_arg1 : FVec F S4096x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x4096 : Shape := ⟨2, ![4096, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  iota_S1024x4096_d0_w32 : S1024x4096.Iotas .tc 32 [0]
  iota_S1024x4096_d1_w32 : S1024x4096.Iotas .tc 32 [1]
  inb_S4096x512_S4096x512_0_0 : ∀ a, (![0, 0] : Fin 2 → Nat) a + S4096x512.size a ≤ S4096x512.size a
  h_S4096x512 : 0 < S4096x512.numel
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let arg2 : BitVec 32 := BitVec.ofNat 32 (i 2).val
  let v3 : BitVec 1 := Scalar.cmpi .ne arg0 arg2
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let arg2 : BitVec 32 := BitVec.ofNat 32 (i 2).val
  let v6 : BitVec 1 := Scalar.cmpi .eq arg0 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== Proof.Spec.lean ====
/-
  The hollow product, as a function of the two argument arrays: entry (r, c) of the result is row r of the square
  matrix W, with its diagonal entry W(r, r) replaced by zero, times column c of X,
      G(W, X)(r, c) = ∑_K (if K = r then 0 else W(r, K)) · X(K, c)      over the extended reals.
  Both programs compute this sum; they differ in how the 4096 summands are grouped. The tiled program walks the
  contraction axis in eight blocks of 512, starting from zero and adding one block's partial sum per step
  (`accum`); the extended reals being a commutative monoid under addition, the ordered chain of partial sums is
  the whole sum (`accum_last`). No finiteness is needed: only associativity and commutativity of addition are used,
  and the summands themselves are the same on both sides.
-/
import Idealize.ShloMosaic.PureOps.Ideal
import Idealize.ShloMosaic.Lib.ValueIdx

noncomputable section

namespace Cert.Hollow

open Idealize.ShloMosaic Idealize.ShloMosaic.ValueIdx

/-- The square matrix's shape, -/
abbrev SW : Shape := ⟨2, ![4096, 4096]⟩
/-- and the right factor's (and the result's). -/
abbrev SX : Shape := ⟨2, ![4096, 512]⟩

/-- Entry (r, c) of the hollow product. -/
def Gc (W : SW.Idx → EReal) (X : SX.Idx → EReal) (r : Fin 4096) (c : Fin 512) : EReal :=
  ∑ K : Fin 4096, (if K = r then (0 : EReal) else W (ix2 r K)) * X (ix2 K c)

/-- The hollow product as an array. -/
def G (W : SW.Idx → EReal) (X : SX.Idx → EReal) : SX.Idx → EReal := fun j => Gc W X (j 0) (j 1)

theorem G_apply (W : SW.Idx → EReal) (X : SX.Idx → EReal) (r : Fin 4096) (c : Fin 512) :
    G W X (ix2 r c) = Gc W X r c := rfl

/-- Position p of block i, when an axis of 4096 is cut into eight blocks of 512, -/
def at8 (i : Fin 8) (p : Fin 512) : Fin 4096 := ⟨512 * i.val + p.val, by have := i.isLt; have := p.isLt; omega⟩
/-- and into four blocks of 1024. -/
def at4 (t : Fin 4) (p : Fin 1024) : Fin 4096 := ⟨1024 * t.val + p.val, by have := t.isLt; have := p.isLt; omega⟩

theorem at8_val (i : Fin 8) (p : Fin 512) : (at8 i p).val = 512 * i.val + p.val := rfl
theorem at4_val (t : Fin 4) (p : Fin 1024) : (at4 t p).val = 1024 * t.val + p.val := rfl

/-- The part of entry (at8 i p, c) that contraction block k contributes. -/
def blockTerm (W : SW.Idx → EReal) (X : SX.Idx → EReal) (i k : Fin 8) (p c : Fin 512) : EReal :=
  ∑ q : Fin 512, (if at8 k q = at8 i p then (0 : EReal) else W (ix2 (at8 i p) (at8 k q))) * X (ix2 (at8 k q) c)

/-- The ordered chain of partial sums: zero plus block 0's part, then one more block's part per step. -/
def accum (W : SW.Idx → EReal) (X : SX.Idx → EReal) (i : Fin 8) (p c : Fin 512) : (n : ℕ) → n < 8 → EReal
  | 0, h => 0 + blockTerm W X i ⟨0, h⟩ p c
  | n + 1, h => accum W X i p c n (Nat.lt_of_succ_lt h) + blockTerm W X i ⟨n + 1, h⟩ p c

/-- Cutting the contraction axis into eight blocks of 512 is a bijection between (block, position) pairs and the axis. -/
def at8Equiv : Fin 8 × Fin 512 ≃ Fin 4096 where
  toFun kq := at8 kq.1 kq.2
  invFun K := (⟨K.val / 512, by have := K.isLt; omega⟩, ⟨K.val % 512, by have := K.isLt; omega⟩)
  left_inv kq := by
    obtain ⟨k, q⟩ := kq
    have hk := k.isLt
    have hq := q.isLt
    refine Prod.ext (Fin.ext ?_) (Fin.ext ?_)
    · show (512 * k.val + q.val) / 512 = k.val
      omega
    · show (512 * k.val + q.val) % 512 = q.val
      omega
  right_inv K := by
    refine Fin.ext ?_
    show 512 * (K.val / 512) + K.val % 512 = K.val
    omega

/-- A sum over the whole axis is the sum over the blocks of the sums over the positions in each block. -/
theorem sum_at8 (f : Fin 4096 → EReal) : ∑ k : Fin 8, ∑ q : Fin 512, f (at8 k q) = ∑ K : Fin 4096, f K := by
  rw [← Equiv.sum_comp at8Equiv f, Fintype.sum_prod_type]
  rfl

/-- The chain of partial sums after step n is the sum of the first n + 1 blocks' parts. -/
theorem accum_eq_sum (W : SW.Idx → EReal) (X : SX.Idx → EReal) (i : Fin 8) (p c : Fin 512) :
    ∀ (n : ℕ) (h : n < 8), accum W X i p c n h
      = ∑ k : Fin (n + 1), blockTerm W X i ⟨k.val, lt_of_lt_of_le k.isLt h⟩ p c := by
  intro n
  induction n with
  | zero =>
    intro h
    rw [Fin.sum_univ_one]
    show 0 + blockTerm W X i ⟨0, h⟩ p c = _
    rw [zero_add]
    rfl
  | succ n ih =>
    intro h
    rw [Fin.sum_univ_castSucc]
    show accum W X i p c n (Nat.lt_of_succ_lt h) + blockTerm W X i ⟨n + 1, h⟩ p c = _
    rw [ih (Nat.lt_of_succ_lt h)]
    rfl

/-- After the last block the chain is the whole sum. -/
theorem accum_last (W : SW.Idx → EReal) (X : SX.Idx → EReal) (i : Fin 8) (p c : Fin 512) :
    accum W X i p c 7 (by omega) = Gc W X (at8 i p) c := by
  rw [accum_eq_sum W X i p c 7 (by omega)]
  exact sum_at8 (fun K => (if K = at8 i p then (0 : EReal) else W (ix2 (at8 i p) K)) * X (ix2 K c))

end Cert.Hollow

end
-- ==== Proof.KernelPayload.lean ====
/-
  What one grid point of the hollow product stores, read entry by entry over the extended reals.
  A grid point t holds the stripe of rows 1024·t … 1024·t + 1023 of the square matrix. It replaces, in row p of the
  stripe, the entry of column 1024·t + p — the diagonal entry of the whole matrix — by zero, and multiplies the masked
  stripe by the whole right factor into a zero accumulator. Entry (p, c) of the result is therefore
      ∑_K (if K = 1024·t + p then 0 else stripe(p, K)) · X(K, c).
  The mask compares two 32-bit words; the row, column and stripe numbers are below 4096, so nothing wraps around and the
  comparison of words is the comparison of numbers.
-/
import proofs.«165389_g2000605606384585_pallaspilot1_262_7_alg».proof.Proof.Gen.KernelIdeal.Skeleton
import proofs.«165389_g2000605606384585_pallaspilot1_262_7_alg».proof.Proof.Spec
import Idealize.ShloMosaic.Lib.ValueIdx
import Idealize.ShloMosaic.Lib.Pipeline.Value
import Idealize.ShloMosaic.PureOps.Ideal.Laws

noncomputable section

namespace Cert.KernelIdeal.HollowValue

open Idealize.ShloMosaic Idealize.ShloMosaic.ValueIdx
open Cert.KernelIdeal

/-- The product's dimension numbers: rows of the left factor against columns of the right, one contracted axis. -/
abbrev D : DotDims S1024x4096 S4096x512 S1024x512 := dot_S1024x4096_S4096x512_S1024x512_1_0_0_1_n_n

/-- The contraction's positions are the 4096 columns of the left factor. -/
abbrev eK : D.contr.Idx ≃ Fin 4096 := contrEquiv1 D 4096 rfl rfl

theorem lhs_at (p : Fin 1024) (c : Fin 512) (K : Fin 4096) : D.lhsIdx (ix2 p c) (eK.symm K) = ix2 p K := by
  funext a
  match a with
  | ⟨0, _⟩ => apply Fin.ext; simp [DotDims.lhsIdx, D, dot_S1024x4096_S4096x512_S1024x512_1_0_0_1_n_n]; rfl
  | ⟨1, _⟩ =>
    apply Fin.ext
    exact (DotDims.lhsIdx_val_of_single (d := D) (cl := 1) rfl (ix2 p c) (eK.symm K)).trans (contrEquiv1_symm_val D 4096 rfl rfl K)

theorem rhs_at (p : Fin 1024) (c : Fin 512) (K : Fin 4096) : D.rhsIdx (ix2 p c) (eK.symm K) = ix2 K c := by
  funext a
  match a with
  | ⟨0, _⟩ =>
    apply Fin.ext
    exact (DotDims.rhsIdx_val_of_single (d := D) (cr := 0) rfl (ix2 p c) (eK.symm K)).trans (contrEquiv1_symm_val D 4096 rfl rfl K)
  | ⟨1, _⟩ => apply Fin.ext; simp [DotDims.rhsIdx, D, dot_S1024x4096_S4096x512_S1024x512_1_0_0_1_n_n]; rfl

/-- The comparison word of the mask: column K of row p of stripe t is on the diagonal exactly when
    K = 1024·t + p; nothing wraps around, all three numbers being far below 2^32. -/
theorem diag_word (t K p : Nat) (ht : t < 4) (hK : K < 4096) (hp : p < 1024) :
    (BitVec.ofNat 32 K = BitVec.ofNat 32 p + BitVec.ofNat 32 t * 1024#32) ↔ K = 1024 * t + p := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- The masked stripe at an index: zero on the diagonal of the square matrix, the loaded entry elsewhere. -/
theorem masked_apply (i : grid0.Coords) (v0 : Vec Ideal S1024x4096 .f32) (p : Fin 1024) (K : Fin 4096) :
    (select (cmpi .eq (iota .tc S1024x4096 32 [1] Gen.iota_S1024x4096_d1_w32)
        (addi (iota .tc S1024x4096 32 [0] Gen.iota_S1024x4096_d0_w32) (broadcast S1024x4096 (Scalar.muli (BitVec.ofNat 32 (i 0).val) 1024#32))))
      (broadcast S1024x4096 (Scalar.ofBits (F := Ideal) .f32 0x00000000#32)) v0 : FVec Ideal S1024x4096 .f32) (ix2 p K)
      = if K.val = 1024 * (i 0).val + p.val then (0 : EReal) else v0 (ix2 p K) := by
  have ht : (i 0).val < 4 := (i 0).isLt
  rw [select_apply]
  show Scalar.select (IntOp.cmpi .eq (iota .tc S1024x4096 32 [1] Gen.iota_S1024x4096_d1_w32 (ix2 p K))
      (IntOp.addi (iota .tc S1024x4096 32 [0] Gen.iota_S1024x4096_d0_w32 (ix2 p K)) (IntOp.muli (BitVec.ofNat 32 (i 0).val) 1024#32)))
      (Ideal.ofBits .f32 0x00000000#32) (v0 (ix2 p K)) = _
  rw [iota_single_apply, iota_single_apply, Ideal.ofBits_zero_f32]
  show Scalar.select (BitVec.ofBool (BitVec.ofNat 32 K.val == BitVec.ofNat 32 p.val + BitVec.ofNat 32 (i 0).val * 1024#32)) 0 (v0 (ix2 p K)) = _
  by_cases h : K.val = 1024 * (i 0).val + p.val
  · rw [if_pos h, (beq_iff_eq).2 ((diag_word _ _ _ ht K.isLt p.isLt).2 h)]; rfl
  · rw [if_neg h, (beq_eq_false_iff_ne).2 (fun e => h ((diag_word _ _ _ ht K.isLt p.isLt).1 e))]; rfl

/-- THE PAYLOAD AT AN INDEX: entry (p, c) of what a grid point stores is row p of the masked stripe times column c
    of the right factor, the accumulator being the zero splat. -/
theorem pay_apply (i : Cert.KernelIdeal.grid0.Coords) (v0 : Vec Ideal S1024x4096 .f32) (v9 : Vec Ideal S4096x512 .f32) (p : Fin 1024) (c : Fin 512) :
    Gen.k0_pay1 (F := Ideal) i v0 v9 (ix2 p c) = ∑ K : Fin 4096, (if K.val = 1024 * (i 0).val + p.val then (0 : EReal) else v0 (ix2 p K)) * v9 (ix2 K c) := by
  unfold Gen.k0_pay1
  refine (Ideal.matmul_constant_zero_apply D none _ _ (ix2 p c)).trans ?_
  refine (Equiv.sum_comp eK.symm _).symm.trans ?_
  refine Finset.sum_congr rfl fun K _ => ?_
  rw [lhs_at, rhs_at]
  exact congrArg (· * v9 (ix2 K c)) (masked_apply i v0 p K)

end Cert.KernelIdeal.HollowValue
end
-- ==== Proof.KernelValue.lean ====
/-
  The result array of the tiled hollow product, over the extended reals.
  The grid has four points. Point t holds the stripe of rows 1024·t … 1024·t + 1023 of the square matrix W and the whole
  right factor X, and writes rows 1024·t … 1024·t + 1023 of the result. By the payload read at an index, entry (p, c) of
  what point t writes is  ∑_K (if K = 1024·t + p then 0 else W(1024·t + p, K)) · X(K, c),  which is entry
  (1024·t + p, c) of the hollow product G(W, X): every point's block is the restriction of the one function G to its
  rows. Row r of the result lies in the stripe of point r / 1024, so the four stripes cover the array, and the array
  after the run is G(W, X); the two arguments are only read.
-/
import proofs.«165389_g2000605606384585_pallaspilot1_262_7_alg».proof.Proof.KernelIdealFrame
import proofs.«165389_g2000605606384585_pallaspilot1_262_7_alg».proof.Proof.KernelPayload
import proofs.«165389_g2000605606384585_pallaspilot1_262_7_alg».proof.Proof.Spec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.HollowValue

open Cert.KernelIdeal Cert.KernelIdeal.Gen Cert.KernelIdeal.GenP

variable (m : (ℓ : Loc nD τ sig) → Buf (Elt Ideal) ℓ) (ρ : Dev nD → PrngReg)

theorem hz : (![0, 0] : Fin 2 → Nat) = fun _ => 0 := funext fun a => by fin_cases a <;> rfl

/-- The printed index maps over the four grid points: the stripe of the square matrix and the output block move with the
    point along the rows, the right factor's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- Window 0's block at point `t` is the stripe of rows 1024·t … 1024·t + 1023 of the square matrix. -/
theorem blk0_apply (c : Dev nD) (t : Fin cfg0.N) (p : Fin 1024) (K : Fin 4096) (r : Fin 4096) (hr : r.val = 1024 * t.val + p.val) :
    (iblk m c 0 t : Vec Ideal S1024x4096 .f32) (ix2 p K) = (m ((c.tc : Thread nD τ).loc main_arg0) : S4096x4096.Idx → EReal) (ix2 r K) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * p.val = r.val; rw [e0, hr]; omega
  | ⟨1, _⟩ => show win0_0.index t 1 * 4096 + 1 * K.val = K.val; rw [e1]; omega

/-- Window 1's block, at every point, is the whole right factor. -/
theorem blk1_apply (c : Dev nD) (t : Fin cfg0.N) (K : Fin 4096) (q : Fin 512) :
    (iblk m c 1 t : Vec Ideal S4096x512 .f32) (ix2 K q) = (m ((c.tc : Thread nD τ).loc main_arg1) : S4096x512.Idx → EReal) (ix2 K q) := by
  obtain ⟨-, -, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t 0 * 4096 + 1 * K.val = K.val; rw [e2]; omega
  | ⟨1, _⟩ => show win0_1.index t 1 * 512 + 1 * q.val = q.val; rw [e3]; omega

/-- WHAT POINT `t` WRITES BACK is block `t` of the hollow product of the two argument arrays. -/
theorem flushed_eq (c : Dev nD) (t : Fin cfg0.N) :
    (dats m 0 c).flushed 2 t = ((cfg0.win 2).blk t).view.read (Elt Ideal) (Cert.Hollow.G (m ((c.tc : Thread nD τ).loc main_arg0)) (m ((c.tc : Thread nD τ).loc main_arg1))) := by
  show (cfg0.win 2).cut (grid0.coords t) ((dats m 0 c).after 2 t) = _
  rw [after0_2]
  unfold out0_2
  rw [View.canon_unit_zero hz]
  simp only [View.ld_unit_zero (S := S1024x4096) hz, View.ld_unit_zero (S := S4096x512) hz]
  funext j
  obtain ⟨p, q, rfl⟩ : ∃ (p : Fin 1024) (q : Fin 512), j = ix2 p q := ⟨j 0, j 1, eq_ix2 j⟩
  obtain ⟨-, -, -, -, e4, e5, eg⟩ := idx_facts t
  have hN : cfg0.N = 4 := N_0
  have ht := t.isLt
  have hp := p.isLt
  obtain ⟨r, hr⟩ : ∃ r : Fin 4096, r.val = 1024 * t.val + p.val := ⟨⟨1024 * t.val + p.val, by omega⟩, rfl⟩
  have hemb : ((cfg0.win 2).blk t).view.emb (ix2 p q) = ix2 r q := by
    funext a
    apply Fin.ext
    match a with
    | ⟨0, _⟩ => show win0_2.index t 0 * 1024 + 1 * p.val = r.val; rw [e4, hr]; omega
    | ⟨1, _⟩ => show win0_2.index t 1 * 512 + 1 * q.val = q.val; rw [e5]; omega
  show k0_pay1 (grid0.coords t) (iblk m c 0 t) (iblk m c 1 t) (ix2 p q) = Hollow.G _ _ (((cfg0.win 2).blk t).view.emb (ix2 p q))
  rw [hemb, Hollow.G_apply]
  refine (pay_apply (grid0.coords t) (iblk m c 0 t) (iblk m c 1 t) p q).trans ?_
  unfold Hollow.Gc
  refine Finset.sum_congr rfl fun K _ => ?_
  rw [blk0_apply m c t p K r hr, blk1_apply m c t K q]
  refine congrArg (· * _) ?_
  refine if_congr ?_ rfl rfl
  rw [eg, ← hr]
  exact ⟨fun h => Fin.ext h, fun h => congrArg Fin.val h⟩

/-- An index of the result array is in point `t`'s block iff each coordinate is in the block's range on its axis. -/
theorem mem_blk (t : Fin cfg0.N) (i : S4096x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Row r of the result lies in the block of the point r / 1024: the four row stripes tile the array. -/
theorem cover (i : S4096x512.Idx) : ∃ t : Fin cfg0.N, (cfg0.win 2).flush t = true ∧ i ∈ ((cfg0.win 2).blk t).view.set := by
  have hN : cfg0.N = 4 := N_0
  have hi0 : (i 0).val < 4096 := (i 0).isLt
  have hi1 : (i 1).val < 512 := (i 1).isLt
  obtain ⟨t, htv⟩ : ∃ t : Fin cfg0.N, t.val = (i 0).val / 1024 := ⟨⟨(i 0).val / 1024, by omega⟩, rfl⟩
  obtain ⟨-, -, -, -, e4, e5, -⟩ := idx_facts t
  refine ⟨t, flush0_2 t, ?_⟩
  rw [mem_blk]
  intro a
  match a with
  | ⟨0, _⟩ => show win0_2.index t 0 * 1024 ≤ (i 0).val ∧ (i 0).val < win0_2.index t 0 * 1024 + 1024; rw [e4, htv]; omega
  | ⟨1, _⟩ => show win0_2.index t 1 * 512 ≤ (i 1).val ∧ (i 1).val < win0_2.index t 1 * 512 + 512; rw [e5]; omega

/-- THE RESULT ARRAY after the run is the hollow product of the two argument arrays. -/
theorem final (c : Dev nD) : (dats m 0 c).arrAt 2 cfg0.N = Cert.Hollow.G (m ((c.tc : Thread nD τ).loc main_arg0)) (m ((c.tc : Thread nD τ).loc main_arg1)) :=
  (dats m 0 c).arrAt_eq_of_cover 2 (Cert.Hollow.G (m ((c.tc : Thread nD τ).loc main_arg0)) (m ((c.tc : Thread nD τ).loc main_arg1)))
    (fun t _ => flushed_eq m c t) cover

/-- THE RUN, READ: the result array at the hollow product, the two arguments unchanged. -/
theorem run : θ_run (defs (F := Ideal)) (onTc (τ := τ) (main (F := Ideal))) ⟨m, fun _ => 0, ρ⟩ fun r => ∀ c : Dev nD,
      r.2.mem ((c.tc : Thread nD τ).loc main_v0) = Cert.Hollow.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HollowValue
end
-- ==== Proof.RefRuns.lean ====
/-
  The tiled program's grid is (i, j, k) = (8, 1, 8), walked with k fastest: point t has row block i = t / 8 and
  contraction block k = t % 8. Its body branches three times on the point: it clears the output block where k = 0,
  adds the plain block product where i ≠ k, and adds the product with the tile's diagonal zeroed where i = k. This
  module decides those three conditions over the 64 points in closed form, shows that the output window is never
  idle (at every point exactly one of the last two branches stores into it), and names each window's current
  staging buffer at a point.
-/
import proofs.«165389_g2000605606384585_pallaspilot1_262_7_alg».proof.Proof.Gen.ReferenceIdeal.Frame
import proofs.«165389_g2000605606384585_pallaspilot1_262_7_alg».proof.Proof.Gen.ReferenceIdeal.Skeleton

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions over the grid -/

/-- The clearing branch is taken exactly where the contraction block is the first. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The plain product is added exactly off the diagonal of blocks, -/
theorem hcond2 : ∀ t : Fin cfg0.N, k0_cond2 (grid0.coords t) = 1#1 ↔ ¬ t.val / 8 = t.val % 8 :=
  (by decide +kernel : ∀ t : Fin grid0.N, k0_cond2 (grid0.coords t) = 1#1 ↔ ¬ t.val / 8 = t.val % 8)
/-- and the hollowed product exactly on it. -/
theorem hcond3 : ∀ t : Fin cfg0.N, k0_cond3 (grid0.coords t) = 1#1 ↔ t.val / 8 = t.val % 8 :=
  (by decide +kernel : ∀ t : Fin grid0.N, k0_cond3 (grid0.coords t) = 1#1 ↔ t.val / 8 = t.val % 8)

/-- The output window is idle nowhere: whatever the coordinates, the row block and the contraction block are
    equal or they are not, so one of the two adding branches stores into it. -/
theorem live2 : ∀ i : grid0.Coords, cfg0.idle 2 i = false :=
  (by decide +kernel : ∀ i : grid0.Coords, idle0 2 i = false)

/-! ## The staging buffers at a point -/

/-- One staging buffer of the output window, through which its contents are stated. -/
abbrev VO2 : View sig .tc .vmem S512x512 .f32 := (Memref.whole cc0_stg2_0 : Memref sig .tc .vmem S512x512 .f32).view
/-- Each window's current staging buffer at point `t`, and its wholeness. -/
abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)

end Cert.ReferenceIdeal.Hand

end
-- ==== Proof.RefRunA.lean ====
/-
  The body at the one point where the contraction block is the first AND lies on the diagonal of blocks (i = k = 0):
  it clears the output block, reads the cleared block back, and adds the hollowed block product to it.
-/
import proofs.«165389_g2000605606384585_pallaspilot1_262_7_alg».proof.Proof.RefRuns

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging buffer in this case (the last store first),
    with the proof that the body, run on whole staging buffers holding the two input blocks, ends
    with the inputs as they were and the output's buffer written with those pieces. The pieces are the witness the
    symbolic run finds. -/
noncomputable def kernelRun_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : ¬ k0_cond2 i = 1#1) (hc3 : k0_cond3 i = 1#1)
    (x0 : Vec F S512x512 .f32) (x1 : Vec F S512x512 .f32) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__selfexpr_tiled_kernel i arg3 harg3 arg4 harg4 arg5 harg5) K } := by
  refine ⟨?_, fun E K => ?run⟩
  case run =>
    simp only [cc0__selfexpr_tiled_kernel_eq_skeleton]; unfold cc0__selfexpr_tiled_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.ReferenceIdeal.Hand

end
-- ==== Proof.RefRunB.lean ====
/-
  The body at a point where the contraction block is the first and lies off the diagonal (k = 0, i ≠ 0): it clears
  the output block, reads the cleared block back, and adds the plain block product to it.
-/
import proofs.«165389_g2000605606384585_pallaspilot1_262_7_alg».proof.Proof.RefRuns

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging buffer in this case (the last store first),
    with the proof that the body, run on whole staging buffers holding the two input blocks, ends
    with the inputs as they were and the output's buffer written with those pieces. The pieces are the witness the
    symbolic run finds. -/
noncomputable def kernelRun_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : k0_cond2 i = 1#1) (hc3 : ¬ k0_cond3 i = 1#1)
    (x0 : Vec F S512x512 .f32) (x1 : Vec F S512x512 .f32) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__selfexpr_tiled_kernel i arg3 harg3 arg4 harg4 arg5 harg5) K } := by
  refine ⟨?_, fun E K => ?run⟩
  case run =>
    simp only [cc0__selfexpr_tiled_kernel_eq_skeleton]; unfold cc0__selfexpr_tiled_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.ReferenceIdeal.Hand

end
-- ==== Proof.RefRunC.lean ====
/-
  The body at a point past the first contraction block and off the diagonal (k ≠ 0, i ≠ k): it reads the running
  output block and adds the plain block product to it.
-/
import proofs.«165389_g2000605606384585_pallaspilot1_262_7_alg».proof.Proof.RefRuns

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging buffer in this case (the last store first),
    with the proof that the body, run on whole staging buffers holding the two input blocks and the running output block, ends
    with the inputs as they were and the output's buffer written with those pieces. The pieces are the witness the
    symbolic run finds. -/
noncomputable def kernelRun_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : k0_cond2 i = 1#1) (hc3 : ¬ k0_cond3 i = 1#1)
    (x0 : Vec F S512x512 .f32) (x1 : Vec F S512x512 .f32) (xo2 : Vec F S512x512 .f32) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__selfexpr_tiled_kernel i arg3 harg3 arg4 harg4 arg5 harg5) K } := by
  refine ⟨?_, fun E K => ?run⟩
  case run =>
    simp only [cc0__selfexpr_tiled_kernel_eq_skeleton]; unfold cc0__selfexpr_tiled_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.ReferenceIdeal.Hand

end
-- ==== Proof.RefRunD.lean ====
/-
  The body at a point past the first contraction block and on the diagonal (k ≠ 0, i = k): it reads the running
  output block and adds the hollowed block product to it.
-/
import proofs.«165389_g2000605606384585_pallaspilot1_262_7_alg».proof.Proof.RefRuns

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's staging buffer in this case (the last store first),
    with the proof that the body, run on whole staging buffers holding the two input blocks and the running output block, ends
    with the inputs as they were and the output's buffer written with those pieces. The pieces are the witness the
    symbolic run finds. -/
noncomputable def kernelRun_D (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : ¬ k0_cond2 i = 1#1) (hc3 : k0_cond3 i = 1#1)
    (x0 : Vec F S512x512 .f32) (x1 : Vec F S512x512 .f32) (xo2 : Vec F S512x512 .f32) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__selfexpr_tiled_kernel i arg3 harg3 arg4 harg4 arg5 harg5) K } := by
  refine ⟨?_, fun E K => ?run⟩
  case run =>
    simp only [cc0__selfexpr_tiled_kernel_eq_skeleton]; unfold cc0__selfexpr_tiled_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.ReferenceIdeal.Hand

end
-- ==== Proof.RefOuts.lean ====
/-
  What the tiled program's output block holds after each grid point. A row block i of the result is visited at the
  eight consecutive points t = 8 i + k, k = 0 … 7, and written back after the last of them; between those points the
  block stays in its staging buffer, so what a point with k ≠ 0 finds there is what the point before left. This
  module reads each of the four cases' stores back as the block's contents, defines the contents after point n by
  recursion on n, and packages them as the pipeline's proof data.
-/
import proofs.«165389_g2000605606384585_pallaspilot1_262_7_alg».proof.Proof.RefRunA
import proofs.«165389_g2000605606384585_pallaspilot1_262_7_alg».proof.Proof.RefRunB
import proofs.«165389_g2000605606384585_pallaspilot1_262_7_alg».proof.Proof.RefRunC
import proofs.«165389_g2000605606384585_pallaspilot1_262_7_alg».proof.Proof.RefRunD

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the block -/

/-- The pieces of this case tile the output block, so they cover it. -/
theorem cover_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : ¬ k0_cond2 i = 1#1) (hc3 : k0_cond3 i = 1#1)
    (x0 : Vec F S512x512 .f32) (x1 : Vec F S512x512 .f32) (y : S512x512.Idx) :
    ∃ pc ∈ (kernelRun_A c i arg3 harg3 arg4 harg4 arg5 harg5 hc1 hc2 hc3 x0 x1).1, y ∈ pc.1.set :=
  View.cover_of_tiledL (kernelRun_A c i arg3 harg3 arg4 harg4 arg5 harg5 hc1 hc2 hc3 x0 x1).1 S512x512.size (by sl_kernel_rfl) y

/-- What this case leaves in the output block's staging buffer: its pieces read back. -/
def out_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : ¬ k0_cond2 i = 1#1) (hc3 : k0_cond3 i = 1#1)
    (x0 : Vec F S512x512 .f32) (x1 : Vec F S512x512 .f32) : Vec F S512x512 .f32 :=
  VO2.read (Elt F) (VO2.writes (Elt F) VO2.junk (kernelRun_A c i arg3 harg3 arg4 harg4 arg5 harg5 hc1 hc2 hc3 x0 x1).1)

/-- The pieces of this case tile the output block, so they cover it. -/
theorem cover_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : k0_cond2 i = 1#1) (hc3 : ¬ k0_cond3 i = 1#1)
    (x0 : Vec F S512x512 .f32) (x1 : Vec F S512x512 .f32) (y : S512x512.Idx) :
    ∃ pc ∈ (kernelRun_B c i arg3 harg3 arg4 harg4 arg5 harg5 hc1 hc2 hc3 x0 x1).1, y ∈ pc.1.set :=
  View.cover_of_tiledL (kernelRun_B c i arg3 harg3 arg4 harg4 arg5 harg5 hc1 hc2 hc3 x0 x1).1 S512x512.size (by sl_kernel_rfl) y

/-- What this case leaves in the output block's staging buffer: its pieces read back. -/
def out_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : k0_cond2 i = 1#1) (hc3 : ¬ k0_cond3 i = 1#1)
    (x0 : Vec F S512x512 .f32) (x1 : Vec F S512x512 .f32) : Vec F S512x512 .f32 :=
  VO2.read (Elt F) (VO2.writes (Elt F) VO2.junk (kernelRun_B c i arg3 harg3 arg4 harg4 arg5 harg5 hc1 hc2 hc3 x0 x1).1)

/-- The pieces of this case tile the output block, so they cover it. -/
theorem cover_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : k0_cond2 i = 1#1) (hc3 : ¬ k0_cond3 i = 1#1)
    (x0 : Vec F S512x512 .f32) (x1 : Vec F S512x512 .f32) (xo2 : Vec F S512x512 .f32) (y : S512x512.Idx) :
    ∃ pc ∈ (kernelRun_C c i arg3 harg3 arg4 harg4 arg5 harg5 hc1 hc2 hc3 x0 x1 xo2).1, y ∈ pc.1.set :=
  View.cover_of_tiledL (kernelRun_C c i arg3 harg3 arg4 harg4 arg5 harg5 hc1 hc2 hc3 x0 x1 xo2).1 S512x512.size (by sl_kernel_rfl) y

/-- What this case leaves in the output block's staging buffer: its pieces read back. -/
def out_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : k0_cond2 i = 1#1) (hc3 : ¬ k0_cond3 i = 1#1)
    (x0 : Vec F S512x512 .f32) (x1 : Vec F S512x512 .f32) (xo2 : Vec F S512x512 .f32) : Vec F S512x512 .f32 :=
  VO2.read (Elt F) (VO2.writes (Elt F) VO2.junk (kernelRun_C c i arg3 harg3 arg4 harg4 arg5 harg5 hc1 hc2 hc3 x0 x1 xo2).1)

/-- The pieces of this case tile the output block, so they cover it. -/
theorem cover_D (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : ¬ k0_cond2 i = 1#1) (hc3 : k0_cond3 i = 1#1)
    (x0 : Vec F S512x512 .f32) (x1 : Vec F S512x512 .f32) (xo2 : Vec F S512x512 .f32) (y : S512x512.Idx) :
    ∃ pc ∈ (kernelRun_D c i arg3 harg3 arg4 harg4 arg5 harg5 hc1 hc2 hc3 x0 x1 xo2).1, y ∈ pc.1.set :=
  View.cover_of_tiledL (kernelRun_D c i arg3 harg3 arg4 harg4 arg5 harg5 hc1 hc2 hc3 x0 x1 xo2).1 S512x512.size (by sl_kernel_rfl) y

/-- What this case leaves in the output block's staging buffer: its pieces read back. -/
def out_D (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : ¬ k0_cond2 i = 1#1) (hc3 : k0_cond3 i = 1#1)
    (x0 : Vec F S512x512 .f32) (x1 : Vec F S512x512 .f32) (xo2 : Vec F S512x512 .f32) : Vec F S512x512 .f32 :=
  VO2.read (Elt F) (VO2.writes (Elt F) VO2.junk (kernelRun_D c i arg3 harg3 arg4 harg4 arg5 harg5 hc1 hc2 hc3 x0 x1 xo2).1)

/-! ## The cases at a grid point -/

/-- Case A at grid point `t`: the case's contents at the point's staging buffers and input blocks. -/
def outA_at (c : Dev nD) (t : Fin cfg0.N) (a1 : t.val % 8 = 0) (a3 : t.val / 8 = t.val % 8) : Vec F S512x512 .f32 :=
  out_A c (grid0.coords t) (ms0 t) (hs0 t) (ms1 t) (hs1 t) (ms2 t) (hs2 t) ((hcond1 t).mpr a1) (fun h => (hcond2 t).mp h a3) ((hcond3 t).mpr a3) (iblk m c 0 t) (iblk m c 1 t)

/-- Case B at grid point `t`: the case's contents at the point's staging buffers and input blocks. -/
def outB_at (c : Dev nD) (t : Fin cfg0.N) (a1 : t.val % 8 = 0) (a3 : ¬ t.val / 8 = t.val % 8) : Vec F S512x512 .f32 :=
  out_B c (grid0.coords t) (ms0 t) (hs0 t) (ms1 t) (hs1 t) (ms2 t) (hs2 t) ((hcond1 t).mpr a1) ((hcond2 t).mpr a3) (fun h => a3 ((hcond3 t).mp h)) (iblk m c 0 t) (iblk m c 1 t)

/-- Case C at grid point `t`: the case's contents at the point's staging buffers and input blocks, over the running block `xo`. -/
def outC_at (c : Dev nD) (t : Fin cfg0.N) (a1 : ¬ t.val % 8 = 0) (a3 : ¬ t.val / 8 = t.val % 8) (xo : Vec F S512x512 .f32) : Vec F S512x512 .f32 :=
  out_C c (grid0.coords t) (ms0 t) (hs0 t) (ms1 t) (hs1 t) (ms2 t) (hs2 t) (fun h => a1 ((hcond1 t).mp h)) ((hcond2 t).mpr a3) (fun h => a3 ((hcond3 t).mp h)) (iblk m c 0 t) (iblk m c 1 t) xo

/-- Case D at grid point `t`: the case's contents at the point's staging buffers and input blocks, over the running block `xo`. -/
def outD_at (c : Dev nD) (t : Fin cfg0.N) (a1 : ¬ t.val % 8 = 0) (a3 : t.val / 8 = t.val % 8) (xo : Vec F S512x512 .f32) : Vec F S512x512 .f32 :=
  out_D c (grid0.coords t) (ms0 t) (hs0 t) (ms1 t) (hs1 t) (ms2 t) (hs2 t) (fun h => a1 ((hcond1 t).mp h)) (fun h => (hcond2 t).mp h a3) ((hcond3 t).mpr a3) (iblk m c 0 t) (iblk m c 1 t) xo

/-! ## The output block after each point -/

/-- The output block's staging contents after the body at position `n`: the case the point is in — the first
    contraction block or a later one, on the diagonal of blocks or off it —, a later contraction block adding to
    what position `n - 1` left. -/
def outsAt (c : Dev nD) : (n : ℕ) → n < cfg0.N → Vec F S512x512 .f32
  | 0, hn => outA_at m c ⟨0, hn⟩ (Nat.zero_mod _) (show (0 : ℕ) / 8 = 0 % 8 from by decide)
  | n + 1, hn =>
    if a1 : (n + 1) % 8 = 0 then
      if a3 : (n + 1) / 8 = (n + 1) % 8 then outA_at m c ⟨n + 1, hn⟩ a1 a3
      else outB_at m c ⟨n + 1, hn⟩ a1 a3
    else
      if a3 : (n + 1) / 8 = (n + 1) % 8 then outD_at m c ⟨n + 1, hn⟩ a1 a3 (outsAt c n (Nat.lt_of_succ_lt hn))
      else outC_at m c ⟨n + 1, hn⟩ a1 a3 (outsAt c n (Nat.lt_of_succ_lt hn))

theorem outsAt_A (c : Dev nD) (t : Fin cfg0.N) (a1 : t.val % 8 = 0) (a3 : t.val / 8 = t.val % 8) :
    outsAt m c t.val t.isLt = outA_at m c t a1 a3 := by
  obtain ⟨n, hn⟩ := t
  cases n with
  | zero => exact rfl
  | succ n => exact (dif_pos a1).trans ((dif_pos a3).trans rfl)

theorem outsAt_B (c : Dev nD) (t : Fin cfg0.N) (a1 : t.val % 8 = 0) (a3 : ¬ t.val / 8 = t.val % 8) :
    outsAt m c t.val t.isLt = outB_at m c t a1 a3 := by
  obtain ⟨n, hn⟩ := t
  cases n with
  | zero => exact absurd (by decide : (0 : ℕ) / 8 = 0 % 8) a3
  | succ n => exact (dif_pos a1).trans ((dif_neg a3).trans rfl)

theorem outsAt_C (c : Dev nD) (t : Fin cfg0.N) (a1 : ¬ t.val % 8 = 0) (a3 : ¬ t.val / 8 = t.val % 8) :
    outsAt m c t.val t.isLt = outC_at m c t a1 a3 (outsAt m c (t.val - 1) (Nat.lt_of_le_of_lt (Nat.sub_le _ _) t.isLt)) := by
  obtain ⟨n, hn⟩ := t
  cases n with
  | zero => exact absurd (Nat.zero_mod _) a1
  | succ n => exact (dif_neg a1).trans ((dif_neg a3).trans rfl)

theorem outsAt_D (c : Dev nD) (t : Fin cfg0.N) (a1 : ¬ t.val % 8 = 0) (a3 : t.val / 8 = t.val % 8) :
    outsAt m c t.val t.isLt = outD_at m c t a1 a3 (outsAt m c (t.val - 1) (Nat.lt_of_le_of_lt (Nat.sub_le _ _) t.isLt)) := by
  obtain ⟨n, hn⟩ := t
  cases n with
  | zero => exact absurd (Nat.zero_mod _) a1
  | succ n => exact (dif_neg a1).trans ((dif_pos a3).trans rfl)

/-! ## The pipeline's proof data -/

/-- The proof data of the one pipeline on core `c`: the arrays as the region finds them; after the body at point
    `t` each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point past the first contraction block the output's current staging buffer holds what the body left at
    the point before: the point is not the first, the block was not written back in between (that happens only
    after a last contraction block), and the window is live and uncut. -/
theorem before0_2_kept (c : Dev nD) (t : Fin cfg0.N) (a1 : ¬ t.val % 8 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live2 (fun _ _ => rfl)]
  dsimp only [dats]

end Cert.ReferenceIdeal.Hand

end
-- ==== Proof.RefFrame.lean ====
/-
  The tiled program's frame: at every grid point the body, started on the staging buffers as the pipeline hands
  them over — the two input blocks, and the output block either fresh (first contraction block) or as the point
  before left it —, leaves the output block at the recorded contents; the launch theorem then runs the whole grid,
  and the argument arrays end as they began.
-/
import proofs.«165389_g2000605606384585_pallaspilot1_262_7_alg».proof.Proof.RefOuts

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the inputs' buffers hold their blocks; the point's position modulo 8 and whether its
    row block equals its contraction block say which of the four cases it is in; past the first contraction block
    the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases a1 : t.val % 8 = 0
  · by_cases a3 : t.val / 8 = t.val % 8
    ·
      rw [outsAt_A m c t a1 a3]
      unfold outA_at out_A
      iintro ⟨HΦ, Ho, ⟨%d0, H0⟩, ⟨%d1, H1⟩, ⟨%d2, H2⟩⟩
      iapply ((kernelRun_A c (grid0.coords t) _ _ _ _ _ _ ((hcond1 t).mpr a1) (fun h => (hcond2 t).mp h a3) ((hcond3 t).mpr a3) (iblk m c 0 t) (iblk m c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    ·
      rw [outsAt_B m c t a1 a3]
      unfold outB_at out_B
      iintro ⟨HΦ, Ho, ⟨%d0, H0⟩, ⟨%d1, H1⟩, ⟨%d2, H2⟩⟩
      iapply ((kernelRun_B c (grid0.coords t) _ _ _ _ _ _ ((hcond1 t).mpr a1) ((hcond2 t).mpr a3) (fun h => a3 ((hcond3 t).mp h)) (iblk m c 0 t) (iblk m c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_B c _ _ _ _ _ _ _ _ _ _ _ _)
  · by_cases a3 : t.val / 8 = t.val % 8
    ·
      rw [outsAt_D m c t a1 a3]
      simp only [before0_2_kept m c t a1]
      unfold outD_at out_D
      iintro ⟨HΦ, Ho, ⟨%d0, H0⟩, ⟨%d1, H1⟩, ⟨%d2, H2⟩⟩
      iapply ((kernelRun_D c (grid0.coords t) _ _ _ _ _ _ (fun h => a1 ((hcond1 t).mp h)) (fun h => (hcond2 t).mp h a3) ((hcond3 t).mpr a3) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_D c _ _ _ _ _ _ _ _ _ _ _ _ _)
    ·
      rw [outsAt_C m c t a1 a3]
      simp only [before0_2_kept m c t a1]
      unfold outC_at out_C
      iintro ⟨HΦ, Ho, ⟨%d0, H0⟩, ⟨%d1, H1⟩, ⟨%d2, H2⟩⟩
      iapply ((kernelRun_C c (grid0.coords t) _ _ _ _ _ _ (fun h => a1 ((hcond1 t).mp h)) ((hcond2 t).mpr a3) (fun h => a3 ((hcond3 t).mp h)) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _)

/-- The library's body obligation, at every point (the output window is live at each, so the obligation hands its
    buffer back at the recorded contents). -/
theorem body_obligation (c : Dev nD) : BodyObligation (dats (F := F) m 0 c) (defs₀ (F := F)) Variants.none () Set.univ := fun t => by
  rw [bigSep_W0, bigSep_W0]
  rw [show cfg0.idle 2 (cfg0.grid.coords t) = false from live2 _]
  exact sound_body m c t

/-! ## The run and the frame -/

set_option backward.isDefEq.respectTransparency.types false in
/-- From any memory with zero counters every weakly fair execution of the program terminates, and every final state
    has each array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.Hand

end
-- ==== Proof.RefCases.lean ====
/-
  What each of the four cases of the tiled program's body leaves in the output block, as a value of the blocks it
  reads. Every load and store of the body is of a whole 512×512 buffer, so a load reads the buffer's contents and the
  last store leaves its payload. Where the contraction block is the first, the body first stores the zero block and
  the adding branch reads that back; otherwise it reads what the point before left.
    first block, on the diagonal of blocks:   zero block + hollowed product of the two input blocks
    first block, off the diagonal:            zero block + plain product
    later block, off the diagonal:            running block + plain product
    later block, on the diagonal:             running block + hollowed product
-/
import proofs.«165389_g2000605606384585_pallaspilot1_262_7_alg».proof.Proof.RefOuts
import Idealize.ShloMosaic.Lib.Pipeline.Value
import Idealize.ShloMosaic.Lib.Tactic

set_option maxRecDepth 16384

noncomputable section

namespace Cert.ReferenceIdeal.HollowValue

open Cert.ReferenceIdeal Cert.ReferenceIdeal.Gen Cert.ReferenceIdeal.Hand
open Idealize.ShloMosaic Idealize.ShloMosaic.TcCoe Idealize.ShloMosaic.Tactic
open Idealize.SL Idealize.SL.Sem
open Idealize.ShloMosaic.Pipeline (Dat)

variable {F : FTy → Type} [FloatOps F]

theorem hz : (![0, 0] : Fin 2 → Nat) = fun _ => 0 := funext fun a => by fin_cases a <;> rfl

theorem out_A_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : ¬ k0_cond2 i = 1#1) (hc3 : k0_cond3 i = 1#1)
    (x0 : Vec F S512x512 .f32) (x1 : Vec F S512x512 .f32) :
    out_A c i arg3 harg3 arg4 harg4 arg5 harg5 hc1 hc2 hc3 x0 x1 = k0_pay3 x0 k0_pay1 x1 := by
  unfold out_A
  rw [View.read_writes_eq_canon _ _ _ (cover_A c i arg3 harg3 arg4 harg4 arg5 harg5 hc1 hc2 hc3 x0 x1)]
  unfold kernelRun_A
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

theorem out_B_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : k0_cond1 i = 1#1) (hc2 : k0_cond2 i = 1#1) (hc3 : ¬ k0_cond3 i = 1#1)
    (x0 : Vec F S512x512 .f32) (x1 : Vec F S512x512 .f32) :
    out_B c i arg3 harg3 arg4 harg4 arg5 harg5 hc1 hc2 hc3 x0 x1 = k0_pay2 k0_pay1 x0 x1 := by
  unfold out_B
  rw [View.read_writes_eq_canon _ _ _ (cover_B c i arg3 harg3 arg4 harg4 arg5 harg5 hc1 hc2 hc3 x0 x1)]
  unfold kernelRun_B
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

theorem out_C_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : k0_cond2 i = 1#1) (hc3 : ¬ k0_cond3 i = 1#1)
    (x0 : Vec F S512x512 .f32) (x1 : Vec F S512x512 .f32) (xo2 : Vec F S512x512 .f32) :
    out_C c i arg3 harg3 arg4 harg4 arg5 harg5 hc1 hc2 hc3 x0 x1 xo2 = k0_pay2 xo2 x0 x1 := by
  unfold out_C
  rw [View.read_writes_eq_canon _ _ _ (cover_C c i arg3 harg3 arg4 harg4 arg5 harg5 hc1 hc2 hc3 x0 x1 xo2)]
  unfold kernelRun_C
  dsimp only
  rw [View.canon_unit_zero hz]
  simp only [View.readAt_eq_ld, harg3.read_unread, harg4.read_unread, harg5.read_unread, View.ld_unit_zero (S := S512x512) hz]

theorem out_D_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole)
    (hc1 : ¬ k0_cond1 i = 1#1) (hc2 : ¬ k0_cond2 i = 1#1) (hc3 : k0_cond3 i = 1#1)
    (x0 : Vec F S512x512 .f32) (x1 : Vec F S512x512 .f32) (xo2 : Vec F S512x512 .f32) :
    out_D c i arg3 harg3 arg4 harg4 arg5 harg5 hc1 hc2 hc3 x0 x1 xo2 = k0_pay3 x0 xo2 x1 := by
  unfold out_D
  rw [View.read_writes_eq_canon _ _ _ (cover_D c i arg3 harg3 arg4 harg4 arg5 harg5 hc1 hc2 hc3 x0 x1 xo2)]
  unfold kernelRun_D
  dsimp only
  rw [View.canon_unit_zero hz]
  simp only [View.readAt_eq_ld, harg3.read_unread, harg4.read_unread, harg5.read_unread, View.ld_unit_zero (S := S512x512) hz]

end Cert.ReferenceIdeal.HollowValue

end
-- ==== Proof.RefBlocks.lean ====
/-
  Where the tiled program's blocks sit in the arrays. Grid point t has row block t / 8 and contraction block t % 8.
  At t the first window's block is block (t / 8, t % 8) of the square matrix, the second's is block (t % 8, 0) of
  the right factor, and the output's is block (t / 8, 0) of the result; an element of a block sits, on each axis,
  at the block index times 512 plus its own coordinate. So entry (p, q) of the first block is entry
  (512 · (t / 8) + p, 512 · (t % 8) + q) of the square matrix, and likewise for the other two.
-/
import proofs.«165389_g2000605606384585_pallaspilot1_262_7_alg».proof.Proof.Gen.ReferenceIdeal.Frame
import proofs.«165389_g2000605606384585_pallaspilot1_262_7_alg».proof.Proof.Spec
import Idealize.ShloMosaic.Lib.Pipeline.Value
import Idealize.ShloMosaic.Lib.ValueIdx

set_option maxRecDepth 16384

noncomputable section

namespace Cert.ReferenceIdeal.HollowValue

open Cert.ReferenceIdeal Cert.ReferenceIdeal.Gen
open Idealize.ShloMosaic Idealize.ShloMosaic.TcCoe Idealize.ShloMosaic.ValueIdx
open Idealize.SL Idealize.SL.Sem
open Cert.Hollow (at8)

variable {F : FTy → Type} [FloatOps F]
variable (m : (ℓ : Loc nD τ sig) → Buf (Elt F) ℓ)

/-- The three windows' block indices at every grid point. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0)

/-- The row block of position n of the grid walk, -/
def rowOf (n : ℕ) (h : n < cfg0.N) : Fin 8 := ⟨n / 8, by have h64 : cfg0.N = 64 := N_0; omega⟩
/-- and its contraction block. -/
def colOf (n : ℕ) : Fin 8 := ⟨n % 8, Nat.mod_lt _ (by norm_num)⟩

theorem rowOf_val (n : ℕ) (h : n < cfg0.N) : (rowOf n h).val = n / 8 := rfl
theorem colOf_val (n : ℕ) : (colOf n).val = n % 8 := rfl

/-- Entry (p, q) of the first window's block at point t is entry (512 (t / 8) + p, 512 (t % 8) + q) of the square matrix. -/
theorem iblk0_apply (c : Dev nD) (t : Fin cfg0.N) (p q : Fin 512) :
    (iblk m c 0 t : Vec F S512x512 .f32) (ix2 p q)
      = (V m c main_arg0 : S4096x4096.Idx → Elt F .f32) (ix2 (at8 (rowOf t.val t.isLt) p) (at8 (colOf t.val) q)) := by
  obtain ⟨e0, e1, -, -, -, -⟩ := idx_facts t
  show V m c main_arg0 (((cfg0.win 0).blk t).view.emb (ix2 p q)) = V m c main_arg0 _
  refine congrArg (V m c main_arg0) ?_
  funext a; apply Fin.ext
  match a with
  | ⟨0, _⟩ => show win0_0.index t (0 : Fin 2) * 512 + 1 * p.val = 512 * (t.val / 8) + p.val; rw [e0]; omega
  | ⟨1, _⟩ => show win0_0.index t (1 : Fin 2) * 512 + 1 * q.val = 512 * (t.val % 8) + q.val; rw [e1]; omega

/-- Entry (q, cc) of the second window's block at point t is entry (512 (t % 8) + q, cc) of the right factor. -/
theorem iblk1_apply (c : Dev nD) (t : Fin cfg0.N) (q cc : Fin 512) :
    (iblk m c 1 t : Vec F S512x512 .f32) (ix2 q cc)
      = (V m c main_arg1 : S4096x512.Idx → Elt F .f32) (ix2 (at8 (colOf t.val) q) cc) := by
  obtain ⟨-, -, e2, e3, -, -⟩ := idx_facts t
  show V m c main_arg1 (((cfg0.win 1).blk t).view.emb (ix2 q cc)) = V m c main_arg1 _
  refine congrArg (V m c main_arg1) ?_
  funext a; apply Fin.ext
  match a with
  | ⟨0, _⟩ => show win0_1.index t (0 : Fin 2) * 512 + 1 * q.val = 512 * (t.val % 8) + q.val; rw [e2]; omega
  | ⟨1, _⟩ => show win0_1.index t (1 : Fin 2) * 512 + 1 * cc.val = cc.val; rw [e3]; omega

/-- Entry (p, cc) of the output window's block at point t sits at entry (512 (t / 8) + p, cc) of the result. -/
theorem emb2_apply (t : Fin cfg0.N) (p cc : Fin 512) :
    ((cfg0.win 2).blk t).view.emb (ix2 p cc) = (ix2 (at8 (rowOf t.val t.isLt) p) cc : S4096x512.Idx) := by
  obtain ⟨-, -, -, -, e4, e5⟩ := idx_facts t
  funext a; apply Fin.ext
  match a with
  | ⟨0, _⟩ => show win0_2.index t (0 : Fin 2) * 512 + 1 * p.val = 512 * (t.val / 8) + p.val; rw [e4]; omega
  | ⟨1, _⟩ => show win0_2.index t (1 : Fin 2) * 512 + 1 * cc.val = cc.val; rw [e5]; omega

/-- An index of the result is in point t's output block iff each coordinate is in the block's range on its axis. -/
theorem mem_blk2 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

end Cert.ReferenceIdeal.HollowValue

end
-- ==== Proof.RefPayload.lean ====
/-
  The three values the tiled program stores into an output block, read at one entry (p, c) over the extended reals:
  the zero block; the block read back plus the product of a 512×512 block of the square matrix with a 512×512 block
  of the right factor, entry (p, c) of which is ∑_q A(p, q) · B(q, c); and the same with the left block's own
  diagonal replaced by zero, ∑_q (if q = p then 0 else A(p, q)) · B(q, c). The diagonal mask compares the row and
  the column number as 32-bit words; for numbers below 512 the words are equal exactly when the numbers are.
-/
import proofs.«165389_g2000605606384585_pallaspilot1_262_7_alg».proof.Proof.Gen.ReferenceIdeal.Skeleton
import Idealize.ShloMosaic.PureOps.Ideal.Laws
import Idealize.ShloMosaic.Lib.ValueIdx
import Idealize.ShloMosaic.Lib.Pipeline.Value

noncomputable section

namespace Cert.ReferenceIdeal.HollowValue

open Cert.ReferenceIdeal Cert.ReferenceIdeal.Gen Idealize.ShloMosaic Idealize.ShloMosaic.ValueIdx

/-- The block product's dimension numbers: contract axis 1 of the left factor with axis 0 of the right. -/
abbrev D512 : DotDims S512x512 S512x512 S512x512 := dot_S512x512_S512x512_S512x512_1_0_0_1_n_n

/-- The contraction index is its one coordinate, below 512. -/
abbrev cE : D512.contr.Idx ≃ Fin 512 := contrEquiv1 D512 512 rfl rfl

theorem lhs_at (p c q : Fin 512) : D512.lhsIdx (ix2 p c) (cE.symm q) = ix2 p q := by
  funext ax; apply Fin.ext
  match ax with
  | ⟨0, _⟩ => simp [DotDims.lhsIdx, D512, dot_S512x512_S512x512_S512x512_1_0_0_1_n_n]; rfl
  | ⟨1, _⟩ =>
    simp [DotDims.lhsIdx, D512, dot_S512x512_S512x512_S512x512_1_0_0_1_n_n]
    exact contrEquiv1_symm_val D512 512 rfl rfl q

theorem rhs_at (p c q : Fin 512) : D512.rhsIdx (ix2 p c) (cE.symm q) = ix2 q c := by
  funext ax; apply Fin.ext
  match ax with
  | ⟨0, _⟩ =>
    simp [DotDims.rhsIdx, D512, dot_S512x512_S512x512_S512x512_1_0_0_1_n_n]
    exact contrEquiv1_symm_val D512 512 rfl rfl q
  | ⟨1, _⟩ => simp [DotDims.rhsIdx, D512, dot_S512x512_S512x512_S512x512_1_0_0_1_n_n]; rfl

/-- The block product into the zero accumulator, read at (p, c): the sum over the contracted coordinate. -/
theorem mm_apply (A B : FVec Ideal S512x512 .f32) (p c : Fin 512) :
    matmul D512 none A B (constant (F := Ideal) S512x512 .f32 0x00000000#32) (ix2 p c)
      = ∑ q : Fin 512, A (ix2 p q) * B (ix2 q c) := by
  refine (Ideal.matmul_constant_zero_apply D512 none A B (ix2 p c)).trans ?_
  rw [← Equiv.sum_comp cE.symm]
  refine Finset.sum_congr rfl fun q _ => ?_
  rw [lhs_at, rhs_at]

/-- Two 32-bit words of numbers below 512 are equal exactly when the numbers are. -/
theorem word_eq (p q : Fin 512) : (BitVec.ofNat 32 p.val == BitVec.ofNat 32 q.val) = decide (q = p) := by
  have hp : p.val < 2 ^ 32 := lt_trans p.isLt (by norm_num)
  have hq : q.val < 2 ^ 32 := lt_trans q.isLt (by norm_num)
  by_cases h : q = p
  · subst h; simp
  · have hne : BitVec.ofNat 32 p.val ≠ BitVec.ofNat 32 q.val := by
      intro he
      have h2 := congrArg BitVec.toNat he
      rw [BitVec.toNat_ofNat, BitVec.toNat_ofNat, Nat.mod_eq_of_lt hp, Nat.mod_eq_of_lt hq] at h2
      exact h (Fin.ext h2.symm)
    simp [h, hne]

/-- The left factor with its diagonal replaced by zero, read at (p, q). -/
theorem masked_apply (v13 : FVec Ideal S512x512 .f32) (p q : Fin 512) :
    select (cmpi .eq (iota .tc S512x512 32 [0] iota_S512x512_d0_w32) (iota .tc S512x512 32 [1] iota_S512x512_d1_w32))
        (broadcast S512x512 (Scalar.ofBits (F := Ideal) .f32 0x00000000#32)) v13 (ix2 p q)
      = if q = p then (0 : EReal) else v13 (ix2 p q) := by
  rw [select_apply, broadcast_apply]
  show Scalar.select (IntOp.cmpi .eq (iota .tc S512x512 32 [0] iota_S512x512_d0_w32 (ix2 p q))
      (iota .tc S512x512 32 [1] iota_S512x512_d1_w32 (ix2 p q))) _ _ = _
  rw [iota_single_apply, iota_single_apply]
  show Scalar.select (BitVec.ofBool (BitVec.ofNat 32 p.val == BitVec.ofNat 32 q.val)) _ _ = _
  rw [word_eq]
  by_cases h : q = p
  · rw [if_pos h, decide_eq_true h]
    exact (select_one _ _).trans Ideal.ofBits_zero_f32
  · rw [if_neg h, decide_eq_false h]
    exact select_zero _ _

theorem pay1_apply (p c : Fin 512) : Gen.k0_pay1 (F := Ideal) (ix2 p c) = (0 : EReal) :=
  Ideal.ofBits_zero_f32

theorem pay2_apply (v9 v11 v12 : Vec Ideal S512x512 .f32) (p c : Fin 512) :
    Gen.k0_pay2 (F := Ideal) v9 v11 v12 (ix2 p c) = v9 (ix2 p c) + ∑ q : Fin 512, v11 (ix2 p q) * v12 (ix2 q c) := by
  have h : Gen.k0_pay2 (F := Ideal) v9 v11 v12 (ix2 p c)
      = shapeCast S512x512 v9 shapeCasts_S512x512_S512x512 (ix2 p c)
        + matmul D512 none v11 v12 (constant (F := Ideal) S512x512 .f32 0x00000000#32) (ix2 p c) := rfl
  rw [h, shapeCast_self, mm_apply]

theorem pay3_apply (v13 v15 v17 : Vec Ideal S512x512 .f32) (p c : Fin 512) :
    Gen.k0_pay3 (F := Ideal) v13 v15 v17 (ix2 p c)
      = v15 (ix2 p c) + ∑ q : Fin 512, (if q = p then (0 : EReal) else v13 (ix2 p q)) * v17 (ix2 q c) := by
  have h : Gen.k0_pay3 (F := Ideal) v13 v15 v17 (ix2 p c)
      = shapeCast S512x512 v15 shapeCasts_S512x512_S512x512 (ix2 p c)
        + matmul D512 none
            (select (cmpi .eq (iota .tc S512x512 32 [0] iota_S512x512_d0_w32) (iota .tc S512x512 32 [1] iota_S512x512_d1_w32))
              (broadcast S512x512 (Scalar.ofBits (F := Ideal) .f32 0x00000000#32)) v13)
            v17 (constant (F := Ideal) S512x512 .f32 0x00000000#32) (ix2 p c) := rfl
  rw [h, shapeCast_self, mm_apply]
  refine congrArg (v15 (ix2 p c) + ·) (Finset.sum_congr rfl fun q _ => ?_)
  rw [masked_apply]

end Cert.ReferenceIdeal.HollowValue

end
-- ==== Proof.SpecBlocks.lean ====
/-
  The part a contraction block contributes to an entry of the hollow product, in the two forms the tiled program
  computes it. The position (block k, place q) on the contraction axis is the position (block i, place p) exactly
  when k = i and q = p. So off the diagonal of blocks (k ≠ i) no summand of the block's part is the zeroed
  diagonal entry, and the part is the plain product of the two blocks; on it (k = i) the zeroed entry is the one at
  q = p, and the part is the product with the tile's own diagonal zeroed.
-/
import proofs.«165389_g2000605606384585_pallaspilot1_262_7_alg».proof.Proof.Spec

noncomputable section

namespace Cert.Hollow

open Idealize.ShloMosaic Idealize.ShloMosaic.ValueIdx

/-- Two (block, place) pairs name the same position exactly when they are the same pair. -/
theorem at8_eq_iff (k i : Fin 8) (q p : Fin 512) : at8 k q = at8 i p ↔ k = i ∧ q = p := by
  have hq := q.isLt
  have hp := p.isLt
  constructor
  · intro h
    have hv : 512 * k.val + q.val = 512 * i.val + p.val := congrArg Fin.val h
    exact ⟨Fin.ext (by omega), Fin.ext (by omega)⟩
  · rintro ⟨rfl, rfl⟩; rfl

/-- Off the diagonal of blocks the block's part is the plain product. -/
theorem blockTerm_off (W : SW.Idx → EReal) (X : SX.Idx → EReal) (i k : Fin 8) (h : ¬ i = k) (p c : Fin 512) :
    blockTerm W X i k p c = ∑ q : Fin 512, W (ix2 (at8 i p) (at8 k q)) * X (ix2 (at8 k q) c) := by
  unfold blockTerm
  refine Finset.sum_congr rfl fun q _ => ?_
  rw [if_neg fun e => h ((at8_eq_iff k i q p).mp e).1.symm]

/-- On the diagonal of blocks it is the product with the tile's own diagonal zeroed. -/
theorem blockTerm_diag (W : SW.Idx → EReal) (X : SX.Idx → EReal) (i : Fin 8) (p c : Fin 512) :
    blockTerm W X i i p c
      = ∑ q : Fin 512, (if q = p then (0 : EReal) else W (ix2 (at8 i p) (at8 i q))) * X (ix2 (at8 i q) c) := by
  unfold blockTerm
  refine Finset.sum_congr rfl fun q _ => ?_
  by_cases e : q = p
  · rw [if_pos e, if_pos ((at8_eq_iff i i q p).mpr ⟨rfl, e⟩)]
  · rw [if_neg e, if_neg fun e' => e ((at8_eq_iff i i q p).mp e').2]

end Cert.Hollow

end
-- ==== Proof.RefValue.lean ====
/-
  The tiled program computes the hollow product. After the body at grid position n (row block n / 8, contraction
  block n % 8) the output block holds, at entry (p, cc), the ordered partial sum of the first n % 8 + 1 blocks' parts
  of entry (512 (n / 8) + p, cc): the first contraction block's point stores zero and adds its part, each later
  point adds its part to what the point before left; a point on the diagonal of blocks adds the part with the tile's
  own diagonal zeroed, which is the hollow product's part there, and a point off it adds the plain product, which
  is the hollow product's part there too. The block is written back after the last contraction block, when the
  partial sum is the whole sum, and the eight written blocks tile the result.
-/
import proofs.«165389_g2000605606384585_pallaspilot1_262_7_alg».proof.Proof.RefFrame
import proofs.«165389_g2000605606384585_pallaspilot1_262_7_alg».proof.Proof.RefCases
import proofs.«165389_g2000605606384585_pallaspilot1_262_7_alg».proof.Proof.RefBlocks
import proofs.«165389_g2000605606384585_pallaspilot1_262_7_alg».proof.Proof.RefPayload
import proofs.«165389_g2000605606384585_pallaspilot1_262_7_alg».proof.Proof.SpecBlocks
import Idealize.ShloMosaic.Lib.Pipeline.Value
import Idealize.ShloMosaic.Lib.Tactic

set_option maxRecDepth 16384

noncomputable section

namespace Cert.ReferenceIdeal.HollowValue

open Cert.ReferenceIdeal Cert.ReferenceIdeal.Gen Cert.ReferenceIdeal.Hand
open Idealize.ShloMosaic Idealize.ShloMosaic.TcCoe Idealize.ShloMosaic.Tactic Idealize.ShloMosaic.ValueIdx
open Idealize.SL Idealize.SL.Sem
open Idealize.ShloMosaic.Pipeline (Dat)

open Cert.Hollow

/-! ## The chain of partial sums, one step at a time -/

theorem accum_first (W : SW.Idx → EReal) (X : SX.Idx → EReal) (i : Fin 8) (p c : Fin 512) (k : ℕ) (hk : k < 8) (h0 : k = 0) :
    accum W X i p c k hk = 0 + blockTerm W X i ⟨k, hk⟩ p c := by
  subst h0; rfl

theorem accum_later (W : SW.Idx → EReal) (X : SX.Idx → EReal) (i : Fin 8) (p c : Fin 512) (k : ℕ) (hk : k < 8) (h0 : ¬ k = 0) :
    accum W X i p c k hk = accum W X i p c (k - 1) (lt_of_le_of_lt (Nat.sub_le _ _) hk) + blockTerm W X i ⟨k, hk⟩ p c := by
  obtain ⟨j, rfl⟩ := Nat.exists_eq_succ_of_ne_zero h0
  rfl

theorem accum_congr (W : SW.Idx → EReal) (X : SX.Idx → EReal) (i i' : Fin 8) (p c : Fin 512) (k k' : ℕ) (hk : k < 8) (hk' : k' < 8)
    (hi : i = i') (hkk : k = k') : accum W X i p c k hk = accum W X i' p c k' hk' := by
  subst hi; subst hkk; rfl

/-! ## What a point adds, over the blocks it reads -/

/-- A point off the diagonal of blocks adds the block's part of the hollow product. -/
theorem plain_val (W : SW.Idx → EReal) (X : SX.Idx → EReal) (i k : Fin 8) (hik : ¬ i = k) (acc x0 x1 : Vec Ideal S512x512 .f32)
    (p cc : Fin 512) (a : EReal) (ha : acc (ix2 p cc) = a)
    (h0 : ∀ q : Fin 512, x0 (ix2 p q) = W (ix2 (at8 i p) (at8 k q)))
    (h1 : ∀ q : Fin 512, x1 (ix2 q cc) = X (ix2 (at8 k q) cc)) :
    k0_pay2 (F := Ideal) acc x0 x1 (ix2 p cc) = a + blockTerm W X i k p cc := by
  rw [pay2_apply, ha, blockTerm_off W X i k hik]
  refine congrArg (a + ·) (Finset.sum_congr rfl fun q _ => ?_)
  rw [h0 q, h1 q]

/-- A point on it adds the block's part too: the tile's own diagonal is the matrix's. -/
theorem hollow_val (W : SW.Idx → EReal) (X : SX.Idx → EReal) (i k : Fin 8) (hik : i = k) (acc x0 x1 : Vec Ideal S512x512 .f32)
    (p cc : Fin 512) (a : EReal) (ha : acc (ix2 p cc) = a)
    (h0 : ∀ q : Fin 512, x0 (ix2 p q) = W (ix2 (at8 i p) (at8 k q)))
    (h1 : ∀ q : Fin 512, x1 (ix2 q cc) = X (ix2 (at8 k q) cc)) :
    k0_pay3 (F := Ideal) x0 acc x1 (ix2 p cc) = a + blockTerm W X i k p cc := by
  subst hik
  rw [pay3_apply, ha, blockTerm_diag W X i]
  refine congrArg (a + ·) (Finset.sum_congr rfl fun q _ => ?_)
  rw [h0 q, h1 q]

/-! ## The output block after each point -/

variable (m : (ℓ : Loc nD τ sig) → Buf (Elt Ideal) ℓ) (ρ : Dev nD → PrngReg)

/-- The square matrix and the right factor as the region finds them, -/
abbrev Wm (c : Dev nD) : SW.Idx → EReal := V m c main_arg0
abbrev Xm (c : Dev nD) : SX.Idx → EReal := V m c main_arg1
/-- and their hollow product as contents of the result array. -/
abbrev Gm (c : Dev nD) : Buf (Elt Ideal) ((c.tc : Thread nD τ).loc main_v0) := G (Wm m c) (Xm m c)

/-- At a first contraction block the point leaves zero plus its block's part. -/
theorem step_first (c : Dev nD) (t : Fin cfg0.N) (a1 : t.val % 8 = 0) (p cc : Fin 512) :
    outsAt m c t.val t.isLt (ix2 p cc)
      = 0 + blockTerm (Wm m c) (Xm m c) (rowOf t.val t.isLt) (colOf t.val) p cc := by
  by_cases a3 : t.val / 8 = t.val % 8
  · rw [outsAt_A m c t a1 a3]
    unfold outA_at
    rw [out_A_eq c (grid0.coords t) (ms0 t) (hs0 t) (ms1 t) (hs1 t) (ms2 t) (hs2 t) _ _ _ (iblk m c 0 t) (iblk m c 1 t)]
    exact hollow_val (Wm m c) (Xm m c) (rowOf t.val t.isLt) (colOf t.val) (Fin.ext a3) (k0_pay1 (F := Ideal)) (iblk m c 0 t) (iblk m c 1 t)
      p cc 0 (pay1_apply p cc) (fun q => iblk0_apply m c t p q) (fun q => iblk1_apply m c t q cc)
  · rw [outsAt_B m c t a1 a3]
    unfold outB_at
    rw [out_B_eq c (grid0.coords t) (ms0 t) (hs0 t) (ms1 t) (hs1 t) (ms2 t) (hs2 t) _ _ _ (iblk m c 0 t) (iblk m c 1 t)]
    exact plain_val (Wm m c) (Xm m c) (rowOf t.val t.isLt) (colOf t.val) (fun e => a3 (congrArg Fin.val e)) (k0_pay1 (F := Ideal)) (iblk m c 0 t) (iblk m c 1 t)
      p cc 0 (pay1_apply p cc) (fun q => iblk0_apply m c t p q) (fun q => iblk1_apply m c t q cc)

/-- At a later one it adds its block's part to what the point before left. -/
theorem step_later (c : Dev nD) (t : Fin cfg0.N) (a1 : ¬ t.val % 8 = 0) (p cc : Fin 512) :
    outsAt m c t.val t.isLt (ix2 p cc)
      = outsAt m c (t.val - 1) (Nat.lt_of_le_of_lt (Nat.sub_le _ _) t.isLt) (ix2 p cc)
        + blockTerm (Wm m c) (Xm m c) (rowOf t.val t.isLt) (colOf t.val) p cc := by
  by_cases a3 : t.val / 8 = t.val % 8
  · rw [outsAt_D m c t a1 a3]
    unfold outD_at
    rw [out_D_eq c (grid0.coords t) (ms0 t) (hs0 t) (ms1 t) (hs1 t) (ms2 t) (hs2 t) _ _ _ (iblk m c 0 t) (iblk m c 1 t)
      (outsAt m c (t.val - 1) (Nat.lt_of_le_of_lt (Nat.sub_le _ _) t.isLt))]
    exact hollow_val (Wm m c) (Xm m c) (rowOf t.val t.isLt) (colOf t.val) (Fin.ext a3)
      (outsAt m c (t.val - 1) (Nat.lt_of_le_of_lt (Nat.sub_le _ _) t.isLt)) (iblk m c 0 t) (iblk m c 1 t)
      p cc _ rfl (fun q => iblk0_apply m c t p q) (fun q => iblk1_apply m c t q cc)
  · rw [outsAt_C m c t a1 a3]
    unfold outC_at
    rw [out_C_eq c (grid0.coords t) (ms0 t) (hs0 t) (ms1 t) (hs1 t) (ms2 t) (hs2 t) _ _ _ (iblk m c 0 t) (iblk m c 1 t)
      (outsAt m c (t.val - 1) (Nat.lt_of_le_of_lt (Nat.sub_le _ _) t.isLt))]
    exact plain_val (Wm m c) (Xm m c) (rowOf t.val t.isLt) (colOf t.val) (fun e => a3 (congrArg Fin.val e))
      (outsAt m c (t.val - 1) (Nat.lt_of_le_of_lt (Nat.sub_le _ _) t.isLt)) (iblk m c 0 t) (iblk m c 1 t)
      p cc _ rfl (fun q => iblk0_apply m c t p q) (fun q => iblk1_apply m c t q cc)

theorem outsAt_congr (c : Dev nD) (n n' : ℕ) (h : n < cfg0.N) (h' : n' < cfg0.N) (e : n = n') :
    outsAt m c n h = outsAt m c n' h' := by
  subst e; rfl

/-- So after position n the output block holds the ordered partial sum of the blocks up to n % 8 of row block n / 8. -/
theorem outsAt_eq (c : Dev nD) : ∀ (n : ℕ) (h : n < cfg0.N) (p cc : Fin 512),
    outsAt m c n h (ix2 p cc)
      = accum (Wm m c) (Xm m c) (rowOf n h) p cc (n % 8) (Nat.mod_lt _ (by norm_num)) := by
  intro n
  induction n with
  | zero =>
    intro h p cc
    exact (step_first m c ⟨0, h⟩ rfl p cc).trans
      (accum_first (Wm m c) (Xm m c) (rowOf 0 h) p cc (0 % 8) (Nat.mod_lt _ (by norm_num)) rfl).symm
  | succ n ih =>
    intro h p cc
    have h64 : cfg0.N = 64 := N_0
    by_cases a1 : (n + 1) % 8 = 0
    · exact (step_first m c ⟨n + 1, h⟩ a1 p cc).trans
        (accum_first (Wm m c) (Xm m c) (rowOf (n + 1) h) p cc ((n + 1) % 8) (Nat.mod_lt _ (by norm_num)) a1).symm
    · refine (step_later m c ⟨n + 1, h⟩ a1 p cc).trans ?_
      rw [accum_later (Wm m c) (Xm m c) (rowOf (n + 1) h) p cc ((n + 1) % 8) (Nat.mod_lt _ (by norm_num)) a1]
      refine congrArg (· + blockTerm (Wm m c) (Xm m c) (rowOf (n + 1) h) (colOf (n + 1)) p cc) ?_
      refine (congrFun (outsAt_congr m c (n + 1 - 1) n _ (Nat.lt_of_succ_lt h) (by omega)) (ix2 p cc)).trans ?_
      rw [ih (Nat.lt_of_succ_lt h) p cc]
      exact accum_congr (Wm m c) (Xm m c) _ _ p cc _ _ _ _ (Fin.ext (by show n / 8 = (n + 1) / 8; omega)) (by omega)

/-! ## The result array -/

/-- What a writing-back point writes back is its block of the hollow product. -/
theorem flushed_eq (c : Dev nD) (t : Fin cfg0.N) (hf : (cfg0.win 2).flush t = true) :
    (dats m 0 c).flushed 2 t = ((cfg0.win 2).blk t).view.read (Elt Ideal) (Gm m c) := by
  have h7 : t.val % 8 = 7 := (flush0_2 t).mp hf
  show (cfg0.win 2).cut (grid0.coords t) ((dats m 0 c).after 2 t) = _
  rw [after0_2]
  funext j
  obtain ⟨p, cc, rfl⟩ : ∃ (p : Fin 512) (cc : Fin 512), j = ix2 p cc := ⟨j 0, j 1, eq_ix2 j⟩
  show outsAt m c t.val t.isLt (ix2 p cc) = G (Wm m c) (Xm m c) (((cfg0.win 2).blk t).view.emb (ix2 p cc))
  rw [emb2_apply, G_apply, outsAt_eq m c t.val t.isLt p cc, ← accum_last]
  exact accum_congr (Wm m c) (Xm m c) _ _ p cc _ _ _ _ rfl h7

/-- Every entry of the result lies in the block written back after the last contraction block of its row block. -/
theorem cover (i : S4096x512.Idx) :
    ∃ t : Fin cfg0.N, (cfg0.win 2).flush t = true ∧ i ∈ ((cfg0.win 2).blk t).view.set := by
  have h64 : cfg0.N = 64 := N_0
  have hi0 : (i 0).val < 4096 := (i 0).isLt
  have hi1 : (i 1).val < 512 := (i 1).isLt
  have ht : 8 * ((i 0).val / 512) + 7 < cfg0.N := by omega
  obtain ⟨-, -, -, -, e4, e5⟩ := idx_facts ⟨8 * ((i 0).val / 512) + 7, ht⟩
  refine ⟨⟨8 * ((i 0).val / 512) + 7, ht⟩, (flush0_2 _).mpr (by show (8 * ((i 0).val / 512) + 7) % 8 = 7; omega), ?_⟩
  rw [mem_blk2]
  intro a
  match a with
  | ⟨0, _⟩ =>
    show win0_2.index ⟨8 * ((i 0).val / 512) + 7, ht⟩ (0 : Fin 2) * 512 ≤ (i 0).val
      ∧ (i 0).val < win0_2.index ⟨8 * ((i 0).val / 512) + 7, ht⟩ (0 : Fin 2) * 512 + 512
    rw [e4]
    show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, ht⟩ (1 : Fin 2) * 512 ≤ (i 1).val
      ∧ (i 1).val < win0_2.index ⟨8 * ((i 0).val / 512) + 7, ht⟩ (1 : Fin 2) * 512 + 512
    rw [e5]
    omega

/-- So the result array ends holding the hollow product. -/
theorem final (c : Dev nD) : (dats m 0 c).arrAt 2 cfg0.N = Gm m c :=
  (dats m 0 c).arrAt_eq_of_cover 2 (Gm m c) (flushed_eq m c) cover

/-- The run, read: the result array at the hollow product of the two arguments, the arguments unchanged. -/
theorem run : θ_run (defs (F := Ideal)) (onTc (τ := τ) (main (F := Ideal))) ⟨m, fun _ => 0, ρ⟩ fun r => ∀ c : Dev nD,
      r.2.mem ((c.tc : Thread nD τ).loc main_v0)
        = Cert.Hollow.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.HollowValue

end
-- ==== Proof.lean ====
/-
  The two programs compute the same hollow product. The kernel walks the rows of W in four stripes of 1024 and, per
  stripe, multiplies the stripe with its diagonal entries zeroed by the whole of x: entry (r, c) of its result is
  ∑_K (if K = r then 0 else W(r, K)) · x(K, c). The reference walks the same product tile by tile, 512 × 512, adding one
  contraction block's partial sum per grid step to a block that starts at zero, and zeroes the tile's diagonal
  only where the row block meets the contraction block: the same summands, grouped in eight blocks. Addition on the
  extended reals is commutative and associative, so the ordered chain of the eight partial sums is the whole sum,
  and the two result arrays agree entry by entry; the first result of both programs is the unchanged matrix W. No
  finiteness is used: the law that joins the two sides only regroups a sum.
  The ideal pass rewrote nothing in the kernel, so the kernel's idealization is its own text.
-/
import proofs.«165389_g2000605606384585_pallaspilot1_262_7_alg».proof.Defs
import proofs.«165389_g2000605606384585_pallaspilot1_262_7_alg».proof.Proof.Gen.Kernel
import proofs.«165389_g2000605606384585_pallaspilot1_262_7_alg».proof.Proof.Gen.KernelIdeal
import proofs.«165389_g2000605606384585_pallaspilot1_262_7_alg».proof.Proof.Gen.ReferenceIdeal
import proofs.«165389_g2000605606384585_pallaspilot1_262_7_alg».proof.Proof.Gen.Pre_finite_inputs
import proofs.«165389_g2000605606384585_pallaspilot1_262_7_alg».proof.Proof.KernelFrame
import proofs.«165389_g2000605606384585_pallaspilot1_262_7_alg».proof.Proof.KernelValue
import proofs.«165389_g2000605606384585_pallaspilot1_262_7_alg».proof.Proof.RefFrame
import proofs.«165389_g2000605606384585_pallaspilot1_262_7_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.GenP.frame m ρ
/-- So does its idealization, -/
theorem frame_ki : Cert.frame_KernelIdeal := fun m ρ _ => Cert.KernelIdeal.GenP.frame m ρ
/-- and so does the tiled reference. -/
theorem frame_ri : Cert.frame_ReferenceIdeal := fun m ρ _ => Cert.ReferenceIdeal.Hand.frame m ρ

/-- Nothing was rewritten between the kernel and its idealization. -/
theorem preserves : Cert.preserves_Kernel_KernelIdeal := trivial

/-- Both idealized programs end with W unchanged as their first result and the hollow product of W and x as their
    second, of arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Hollow.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).2.1, (h c).1, (h c).2.1, (h c).2.2⟩)
      (Cert.KernelIdeal.HollowValue.run m ρ)
  · refine (θ_run Cert.ReferenceIdeal.defs _ _).mono (fun _ h c => ?_) (Cert.ReferenceIdeal.HollowValue.run m' ρ')
    refine ⟨(h c).2.1.trans (hagree c).1, ?_, (h c).2.1, (h c).2.2⟩
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
